-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4x48x48 : Shape := ⟨5, ![4, 64, 4, 48, 48]⟩
abbrev S4x64x1x48x48 : Shape := ⟨5, ![4, 64, 1, 48, 48]⟩
abbrev S4x512x4x48x48 : Shape := ⟨5, ![4, 512, 4, 48, 48]⟩
abbrev S_ : Shape := ⟨0, ![]⟩

class Facts : Prop where
  bcast_S_S4x64x4x48x48 : S_.BroadcastsInDim S4x64x4x48x48 (![] : Fin 0 → Fin S4x64x4x48x48.rank)
  reducesTo_S4x64x4x48x48_S_d0_1_2_3_4 : S4x64x4x48x48.ReducesTo [0, 1, 2, 3, 4] S_
  h_S_ : 0 < S_.numel
  bcast_S_S4x64x1x48x48 : S_.BroadcastsInDim S4x64x1x48x48 (![] : Fin 0 → Fin S4x64x1x48x48.rank)
  reducesTo_S4x64x1x48x48_S_d0_1_2_3_4 : S4x64x1x48x48.ReducesTo [0, 1, 2, 3, 4] S_
  bcast_S_S4x512x4x48x48 : S_.BroadcastsInDim S4x512x4x48x48 (![] : Fin 0 → Fin S4x512x4x48x48.rank)
  reducesTo_S4x512x4x48x48_S_d0_1_2_3_4 : S4x512x4x48x48.ReducesTo [0, 1, 2, 3, 4] S_

variable [Facts]

def fn {F : FTy → Type} [FloatOps F] (main_arg0 : FVec F S4x64x4x48x48 .f32) (main_arg1 : FVec F S4x64x1x48x48 .f32) (main_arg2 : FVec F S4x512x4x48x48 .f32) : IVec S_ 1 :=
  let main_v0 : FVec F S4x64x4x48x48 .f32 := Host.absf main_arg0
  let main_cst : FVec F S_ .f32 := constant S_ .f32 0x7F800000#32
  let main_v1 : FVec F S4x64x4x48x48 .f32 := broadcastInDim S4x64x4x48x48 ![] bcast_S_S4x64x4x48x48 main_cst
  let main_v2 : IVec S4x64x4x48x48 1 := cmpf .olt main_v0 main_v1
  let main_c : IVec S_ 1 := constantI S_ 1 1#1
  let main_v3 : IVec S_ 1 := (fun x v => Host.reduce IntOp.andi x v reducesTo_S4x64x4x48x48_S_d0_1_2_3_4 h_S_) main_v2 main_c
  let main_v4 : FVec F S4x64x1x48x48 .f32 := Host.absf main_arg1
  let main_cst_0 : FVec F S_ .f32 := constant S_ .f32 0x7F800000#32
  let main_v5 : FVec F S4x64x1x48x48 .f32 := broadcastInDim S4x64x1x48x48 ![] bcast_S_S4x64x1x48x48 main_cst_0
  let main_v6 : IVec S4x64x1x48x48 1 := cmpf .olt main_v4 main_v5
  let main_c_1 : IVec S_ 1 := constantI S_ 1 1#1
  let main_v7 : IVec S_ 1 := (fun x v => Host.reduce IntOp.andi x v reducesTo_S4x64x1x48x48_S_d0_1_2_3_4 h_S_) main_v6 main_c_1
  let main_v8 : IVec S_ 1 := andi main_v3 main_v7
  let main_v9 : FVec F S4x512x4x48x48 .f32 := Host.absf main_arg2
  let main_cst_2 : FVec F S_ .f32 := constant S_ .f32 0x7F800000#32
  let main_v10 : FVec F S4x512x4x48x48 .f32 := broadcastInDim S4x512x4x48x48 ![] bcast_S_S4x512x4x48x48 main_cst_2
  let main_v11 : IVec S4x512x4x48x48 1 := cmpf .olt main_v9 main_v10
  let main_c_3 : IVec S_ 1 := constantI S_ 1 1#1
  let main_v12 : IVec S_ 1 := (fun x v => Host.reduce IntOp.andi x v reducesTo_S4x512x4x48x48_S_d0_1_2_3_4 h_S_) main_v11 main_c_3
  let main_v13 : IVec S_ 1 := andi main_v8 main_v12
  main_v13
-- ==== Kernel.lean ====
abbrev S4x64x4x48x48 : Shape := ⟨5, ![4, 64, 4, 48, 48]⟩
abbrev S4x64x1x48x48 : Shape := ⟨5, ![4, 64, 1, 48, 48]⟩
abbrev S4x512x4x48x48 : Shape := ⟨5, ![4, 512, 4, 48, 48]⟩
abbrev S4x64x9216 : Shape := ⟨3, ![4, 64, 9216]⟩
abbrev S4x64x2304 : Shape := ⟨3, ![4, 64, 2304]⟩
abbrev S4x512x9216 : Shape := ⟨3, ![4, 512, 9216]⟩
abbrev S4x512x2304 : Shape := ⟨3, ![4, 512, 2304]⟩
abbrev S1x64x9216 : Shape := ⟨3, ![1, 64, 9216]⟩
abbrev S1x64x256 : Shape := ⟨3, ![1, 64, 256]⟩
abbrev S1x256x9216 : Shape := ⟨3, ![1, 256, 9216]⟩
abbrev S1x256x256 : Shape := ⟨3, ![1, 256, 256]⟩
abbrev S9216x256 : Shape := ⟨2, ![9216, 256]⟩
abbrev S64x9216 : Shape := ⟨2, ![64, 9216]⟩
abbrev S64x256 : Shape := ⟨2, ![64, 256]⟩
abbrev S256 : Shape := ⟨1, ![256]⟩
abbrev S1x256 : Shape := ⟨2, ![1, 256]⟩
abbrev S256x9216 : Shape := ⟨2, ![256, 9216]⟩
abbrev S256x256 : Shape := ⟨2, ![256, 256]⟩
abbrev S4x512x1x48x48 : Shape := ⟨5, ![4, 512, 1, 48, 48]⟩
abbrev S4x1x512x48x48 : Shape := ⟨5, ![4, 1, 512, 48, 48]⟩

abbrev nBuf : Space → Nat
  | .hbm => 9
  | .vmem => 9
  | .smem => 0
  | _ => 0

abbrev bufTy : (tb : Table) → Fin (tcTables nBuf tb) → BufTy
  | .hbm, ⟨0, _⟩ => ⟨S4x64x4x48x48, .f32⟩
  | .hbm, ⟨1, _⟩ => ⟨S4x64x1x48x48, .f32⟩
  | .hbm, ⟨2, _⟩ => ⟨S4x512x4x48x48, .f32⟩
  | .hbm, ⟨3, _⟩ => ⟨S4x64x9216, .f32⟩
  | .hbm, ⟨4, _⟩ => ⟨S4x64x2304, .f32⟩
  | .hbm, ⟨5, _⟩ => ⟨S4x512x9216, .f32⟩
  | .hbm, ⟨6, _⟩ => ⟨S4x512x2304, .f32⟩
  | .hbm, ⟨7, _⟩ => ⟨S4x512x1x48x48, .f32⟩
  | .hbm, ⟨8, _⟩ => ⟨S4x1x512x48x48, .f32⟩
  | .local _ .vmem, ⟨0, _⟩ => ⟨S1x64x9216, .f32⟩
  | .local _ .vmem, ⟨1, _⟩ => ⟨S1x64x9216, .f32⟩
  | .local _ .vmem, ⟨2, _⟩ => ⟨S1x64x256, .f32⟩
  | .local _ .vmem, ⟨3, _⟩ => ⟨S1x64x256, .f32⟩
  | .local _ .vmem, ⟨4, _⟩ => ⟨S1x256x9216, .f32⟩
  | .local _ .vmem, ⟨5, _⟩ => ⟨S1x256x9216, .f32⟩
  | .local _ .vmem, ⟨6, _⟩ => ⟨S1x256x256, .f32⟩
  | .local _ .vmem, ⟨7, _⟩ => ⟨S1x256x256, .f32⟩
  | .local _ .vmem, ⟨8, _⟩ => ⟨S9216x256, .bf16⟩
  | _, _ => ⟨S4x64x4x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 9, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x64x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S4x64x4x48x48_S4x64x9216 : S4x64x4x48x48.ShapeCasts S4x64x9216
  shapeCasts_S4x64x1x48x48_S4x64x2304 : S4x64x1x48x48.ShapeCasts S4x64x2304
  shapeCasts_S4x512x4x48x48_S4x512x9216 : S4x512x4x48x48.ShapeCasts S4x512x9216
  inb_S1x64x9216_S1x64x9216_0_0_0 : ∀ a, (![0, 0, 0] : Fin 3 → Nat) a + S1x64x9216.size a ≤ S1x64x9216.size a
  h_S1x64x9216 : 0 < S1x64x9216.numel
  shapeCasts_S1x64x9216_S64x9216 : S1x64x9216.ShapeCasts S64x9216
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S9216x256_S256 : S9216x256.Reduces [0] S256
  shapeCasts_S256_S1x256 : S256.ShapeCasts S1x256
  broadcasts_S1x256_S9216x256 : S1x256.Broadcasts S9216x256
  bitsLt_bf16_f32 : FTy.bits .bf16 < FTy.bits .f32
  inb_S9216x256_S9216x256_0_0 : ∀ a, (![0, 0] : Fin 2 → Nat) a + S9216x256.size a ≤ S9216x256.size a
  h_S9216x256 : 0 < S9216x256.numel
  shapeCasts_S9216x256_S9216x256 : S9216x256.ShapeCasts S9216x256
  packedbf16_S9216x256_S9216x256_0_0 : (Rect.unit (s := S9216x256) ![0, 0] S9216x256.size inb_S9216x256_S9216x256_0_0).PackedRows (EltTy.packing .bf16)
  inb_S1x256x9216_S1x256x9216_0_0_0 : ∀ a, (![0, 0, 0] : Fin 3 → Nat) a + S1x256x9216.size a ≤ S1x256x9216.size a
  h_S1x256x9216 : 0 < S1x256x9216.numel
  shapeCasts_S1x256x9216_S256x9216 : S1x256x9216.ShapeCasts S256x9216
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S4x512x2304_S4x512x1x48x48 : S4x512x2304.ShapeCasts S4x512x1x48x48
  transposes_S4x512x1x48x48_S4x1x512x48x48_0_2_1_3_4 : S4x512x1x48x48.Transposes [0, 2, 1, 3, 4] S4x1x512x48x48
  dot_S64x9216_S64x256_S9216x256_0_0_1_1_n_n_wf : DotDims.WF S64x9216 S64x256 S9216x256 [0] [0] [1] [1] [] []
  dot_S256x9216_S9216x256_S256x256_1_0_0_1_n_n_wf : DotDims.WF S256x9216 S9216x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x9216.size a ≤ S4x64x9216.size a
  hwx0_0 : ∀ i : grid0.Coords, EltTy.bits .f32 = 32 ∨ (Rect.block (s := S4x64x9216) S1x64x9216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S4x64x2304.size a
  hwx0_1 : ∀ i : grid0.Coords, EltTy.bits .f32 = 32 ∨ (Rect.block (s := S4x64x2304) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x9216.size a ≤ S4x512x9216.size a
  hwx0_2 : ∀ i : grid0.Coords, EltTy.bits .f32 = 32 ∨ (Rect.block (s := S4x512x9216) S1x256x9216.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S4x512x2304.size a
  hwx0_3 : ∀ i : grid0.Coords, EltTy.bits .f32 = 32 ∨ (Rect.block (s := S4x512x2304) S1x256x256.size (cc0_transform_3 i) (hinb0_3 i)).WholeWords (EltTy.packing .f32)

variable [Facts₀]

def dot_S64x9216_S64x256_S9216x256_0_0_1_1_n_n : DotDims S64x9216 S64x256 S9216x256 where
  lhsContracting := [0]
  rhsContracting := [0]
  lhsNonContracting := [1]
  rhsNonContracting := [1]
  lhsBatch := []
  rhsBatch := []
  wf := dot_S64x9216_S64x256_S9216x256_0_0_1_1_n_n_wf
def dot_S256x9216_S9216x256_S256x256_1_0_0_1_n_n : DotDims S256x9216 S9216x256 S256x256 where
  lhsContracting := [1]
  rhsContracting := [0]
  lhsNonContracting := [0]
  rhsNonContracting := [1]
  lhsBatch := []
  rhsBatch := []
  wf := dot_S256x9216_S9216x256_S256x256_1_0_0_1_n_n_wf

abbrev win0_0 : Pipeline.Window sig grid0 :=
  Pipeline.Window.ofSpec (Memref.whole main_v0) S1x64x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x9216.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x4x48x48 : Shape := ⟨5, ![4, 64, 4, 48, 48]⟩
abbrev S4x64x1x48x48 : Shape := ⟨5, ![4, 64, 1, 48, 48]⟩
abbrev S4x512x4x48x48 : Shape := ⟨5, ![4, 512, 4, 48, 48]⟩
abbrev S4x64x9216 : Shape := ⟨3, ![4, 64, 9216]⟩
abbrev S4x64x2304 : Shape := ⟨3, ![4, 64, 2304]⟩
abbrev S4x9216x2304 : Shape := ⟨3, ![4, 9216, 2304]⟩
abbrev S_ : Shape := ⟨0, ![]⟩
abbrev S4x2304 : Shape := ⟨2, ![4, 2304]⟩
abbrev S4x1x2304 : Shape := ⟨3, ![4, 1, 2304]⟩
abbrev S4x512x9216 : Shape := ⟨3, ![4, 512, 9216]⟩
abbrev S4x512x2304 : Shape := ⟨3, ![4, 512, 2304]⟩
abbrev S4x512x1x48x48 : Shape := ⟨5, ![4, 512, 1, 48, 48]⟩
abbrev S4x1x512x48x48 : Shape := ⟨5, ![4, 1, 512, 48, 48]⟩

abbrev nBuf : Space → Nat
  | .hbm => 27
  | .vmem => 0
  | .smem => 0
  | _ => 0

abbrev bufTy : (tb : Table) → Fin (tcTables nBuf tb) → BufTy
  | .hbm, ⟨0, _⟩ => ⟨S4x64x4x48x48, .f32⟩
  | .hbm, ⟨1, _⟩ => ⟨S4x64x1x48x48, .f32⟩
  | .hbm, ⟨2, _⟩ => ⟨S4x512x4x48x48, .f32⟩
  | .hbm, ⟨3, _⟩ => ⟨S4x64x9216, .f32⟩
  | .hbm, ⟨4, _⟩ => ⟨S4x64x2304, .f32⟩
  | .hbm, ⟨5, _⟩ => ⟨S4x9216x2304, .f32⟩
  | .hbm, ⟨6, _⟩ => ⟨S_, .f32⟩
  | .hbm, ⟨7, _⟩ => ⟨S4x9216x2304, .f32⟩
  | .hbm, ⟨8, _⟩ => ⟨S4x9216x2304, .f32⟩
  | .hbm, ⟨9, _⟩ => ⟨S_, .f32⟩
  | .hbm, ⟨10, _⟩ => ⟨S4x2304, .f32⟩
  | .hbm, ⟨11, _⟩ => ⟨S_, .f32⟩
  | .hbm, ⟨12, _⟩ => ⟨S4x2304, .f32⟩
  | .hbm, ⟨13, _⟩ => ⟨S4x2304, .f32⟩
  | .hbm, ⟨14, _⟩ => ⟨S4x1x2304, .f32⟩
  | .hbm, ⟨15, _⟩ => ⟨S4x9216x2304, .f32⟩
  | .hbm, ⟨16, _⟩ => ⟨S4x9216x2304, .f32⟩
  | .hbm, ⟨17, _⟩ => ⟨S4x9216x2304, .f32⟩
  | .hbm, ⟨18, _⟩ => ⟨S_, .f32⟩
  | .hbm, ⟨19, _⟩ => ⟨S4x2304, .f32⟩
  | .hbm, ⟨20, _⟩ => ⟨S4x1x2304, .f32⟩
  | .hbm, ⟨21, _⟩ => ⟨S4x9216x2304, .f32⟩
  | .hbm, ⟨22, _⟩ => ⟨S4x9216x2304, .f32⟩
  | .hbm, ⟨23, _⟩ => ⟨S4x512x9216, .f32⟩
  | .hbm, ⟨24, _⟩ => ⟨S4x512x2304, .f32⟩
  | .hbm, ⟨25, _⟩ => ⟨S4x512x1x48x48, .f32⟩
  | .hbm, ⟨26, _⟩ => ⟨S4x1x512x48x48, .f32⟩
  | _, _ => ⟨S4x64x4x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S4x64x4x48x48_S4x64x9216 : S4x64x4x48x48.ShapeCasts S4x64x9216
  shapeCasts_S4x64x1x48x48_S4x64x2304 : S4x64x1x48x48.ShapeCasts S4x64x2304
  bcast_S_S4x9216x2304 : S_.BroadcastsInDim S4x9216x2304 (![] : Fin 0 → Fin S4x9216x2304.rank)
  reducesTo_S4x9216x2304_S4x2304_d1 : S4x9216x2304.ReducesTo [1] S4x2304
  h_S_ : 0 < S_.numel
  bcast_S_S4x2304 : S_.BroadcastsInDim S4x2304 (![] : Fin 0 → Fin S4x2304.rank)
  bcast_S4x2304_S4x1x2304_0_2 : S4x2304.BroadcastsInDim S4x1x2304 (![0, 2] : Fin 2 → Fin S4x1x2304.rank)
  bcast_S4x1x2304_S4x9216x2304_0_1_2 : S4x1x2304.BroadcastsInDim S4x9216x2304 (![0, 1, 2] : Fin 3 → Fin S4x9216x2304.rank)
  shapeCasts_S4x512x4x48x48_S4x512x9216 : S4x512x4x48x48.ShapeCasts S4x512x9216
  shapeCasts_S4x512x2304_S4x512x1x48x48 : S4x512x2304.ShapeCasts S4x512x1x48x48
  transposes_S4x512x1x48x48_S4x1x512x48x48_0_2_1_3_4 : S4x512x1x48x48.Transposes [0, 2, 1, 3, 4] S4x1x512x48x48
  dot_S4x64x9216_S4x64x2304_S4x9216x2304_1_1_2_2_0_0_wf : DotDims.WF S4x64x9216 S4x64x2304 S4x9216x2304 [1] [1] [2] [2] [0] [0]
  dot_S4x512x9216_S4x9216x2304_S4x512x2304_2_1_1_2_0_0_wf : DotDims.WF S4x512x9216 S4x9216x2304 S4x512x2304 [2] [1] [1] [2] [0] [0]

variable [Facts₀]

def dot_S4x64x9216_S4x64x2304_S4x9216x2304_1_1_2_2_0_0 : DotDims S4x64x9216 S4x64x2304 S4x9216x2304 where
  lhsContracting := [1]
  rhsContracting := [1]
  lhsNonContracting := [2]
  rhsNonContracting := [2]
  lhsBatch := [0]
  rhsBatch := [0]
  wf := dot_S4x64x9216_S4x64x2304_S4x9216x2304_1_1_2_2_0_0_wf
def dot_S4x512x9216_S4x9216x2304_S4x512x2304_2_1_1_2_0_0 : DotDims S4x512x9216 S4x9216x2304 S4x512x2304 where
  lhsContracting := [2]
  rhsContracting := [1]
  lhsNonContracting := [1]
  rhsNonContracting := [2]
  lhsBatch := [0]
  rhsBatch := [0]
  wf := dot_S4x512x9216_S4x9216x2304_S4x512x2304_2_1_1_2_0_0_wf

class Facts : Prop extends Facts₀ where

variable [Facts]
-- ==== Proof.Pieces.lean ====
/-
  What one run of the kernel body leaves behind, as values.

  At a grid point whose innermost coordinate is 0 the body first stores, over the whole carried scratch, the softmax
  block of the point's key and query blocks (the first payload), then reads that scratch back and stores the product
  of the point's value block with it over the whole output block (the second payload). At every other point it stores
  only the output block, from the scratch as the point before left it. Each store covers its buffer, so what the
  buffer holds afterwards is the store's payload, and the loads the payloads are built from read whole buffers.
-/
import proofs.«154387_j26774826123748_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point of the first kind leaves the softmax block of its key and query blocks in the carried scratch. -/
theorem scratch_A (c : Dev nD) (i : grid0.Coords) (arg3 : Memref sig .tc .vmem S1x64x9216 .f32) (harg3 : arg3.IsWhole) (arg4 : Memref sig .tc .vmem S1x64x256 .f32) (harg4 : arg4.IsWhole) (arg5 : Memref sig .tc .vmem S1x256x9216 .f32) (harg5 : arg5.IsWhole) (arg6 : Memref sig .tc .vmem S1x256x256 .f32) (harg6 : arg6.IsWhole) (arg7 : Memref sig .tc .vmem S9216x256 .bf16) (harg7 : arg7.IsWhole) (hc0 : cond0_0 i)
    (x0 : Vec F S1x64x9216 .f32) (x1 : Vec F S1x64x256 .f32) (x2 : Vec F S1x256x9216 .f32) :
    sout0_A_0 c i arg3 harg3 arg4 harg4 arg5 harg5 arg6 harg6 arg7 harg7 hc0 x0 x1 x2 = k0_pay1 x0 x1 := by
  unfold sout0_A_0
  rw [View.read_writes_eq_canon _ _ _ (scover0_A_0 c i arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, harg4.read_unread, View.ld_unit_zero (S := S1x64x9216) hz3,
    View.ld_unit_zero (S := S1x64x256) hz3]

/-- and, in the output block, the product of its value block with that softmax block: the scratch is read back after
    the store that covered it. -/
theorem out_A (c : Dev nD) (i : grid0.Coords) (arg3 : Memref sig .tc .vmem S1x64x9216 .f32) (harg3 : arg3.IsWhole) (arg4 : Memref sig .tc .vmem S1x64x256 .f32) (harg4 : arg4.IsWhole) (arg5 : Memref sig .tc .vmem S1x256x9216 .f32) (harg5 : arg5.IsWhole) (arg6 : Memref sig .tc .vmem S1x256x256 .f32) (harg6 : arg6.IsWhole) (arg7 : Memref sig .tc .vmem S9216x256 .bf16) (harg7 : arg7.IsWhole) (hc0 : cond0_0 i)
    (x0 : Vec F S1x64x9216 .f32) (x1 : Vec F S1x64x256 .f32) (x2 : Vec F S1x256x9216 .f32) :
    out0_A_3 c i arg3 harg3 arg4 harg4 arg5 harg5 arg6 harg6 arg7 harg7 hc0 x0 x1 x2 = k0_pay2 x2 (k0_pay1 x0 x1) := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  rw [View.canon_unit_zero hz3, View.readCov_unit_zero (S := S9216x256) _ hz2]
  simp only [View.readAt_eq_ld, harg3.read_unread, harg4.read_unread, harg5.read_unread,
    View.ld_unit_zero (S := S1x64x9216) hz3, View.ld_unit_zero (S := S1x64x256) hz3,
    View.ld_unit_zero (S := S1x256x9216) hz3]

/-- A point of the second kind leaves, in the output block, the product of its value block with the scratch it found. -/
theorem out_B (c : Dev nD) (i : grid0.Coords) (arg3 : Memref sig .tc .vmem S1x64x9216 .f32) (harg3 : arg3.IsWhole) (arg4 : Memref sig .tc .vmem S1x64x256 .f32) (harg4 : arg4.IsWhole) (arg5 : Memref sig .tc .vmem S1x256x9216 .f32) (harg5 : arg5.IsWhole) (arg6 : Memref sig .tc .vmem S1x256x256 .f32) (harg6 : arg6.IsWhole) (arg7 : Memref sig .tc .vmem S9216x256 .bf16) (harg7 : arg7.IsWhole) (hc0 : ¬cond0_0 i)
    (x0 : Vec F S1x64x9216 .f32) (x1 : Vec F S1x64x256 .f32) (x2 : Vec F S1x256x9216 .f32) (xs0 : Vec F S9216x256 .bf16) :
    out0_B_3 c i arg3 harg3 arg4 harg4 arg5 harg5 arg6 harg6 arg7 harg7 hc0 x0 x1 x2 xs0 = k0_pay2 x2 xs0 := by
  unfold out0_B_3
  rw [View.read_writes_eq_canon _ _ _ (cover0_B_3 c i arg3 harg3 arg4 harg4 arg5 harg5 arg6 harg6 arg7 harg7 hc0 x0 x1 x2 xs0)]
  unfold kernelRun0_B
  dsimp only
  sl_unfold_words
  rw [View.canon_unit_zero hz3]
  simp only [View.readAt_eq_ld, harg5.read_unread, harg7.read_unread, View.ld_unit_zero (S := S1x256x9216) hz3,
    View.ld_unit_zero (S := S9216x256) hz2]

end Cert.KernelIdeal.Pieces

end
-- ==== Proof.PointValues.lean ====
/-
  What the carried scratch and the output block hold after each grid point.

  The grid is (batch, query tile, value tile) with the value tile innermost, two tiles of it: the even points have
  value tile 0 and compute the softmax block; the odd points reuse it. So after an even point the scratch is the
  first payload of that point's key and query blocks, after an odd point it is what the point before left, and after
  every point the output block is the second payload of the point's value block and the scratch as it then stands.
-/
import proofs.«154387_j26774826123748_2_alg».proof.Proof.Pieces

set_option maxRecDepth 16384

noncomputable section

open Idealize.ShloMosaic Idealize.ShloMosaic.TcCoe Idealize.SL.Sem

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- The point before an odd point. -/
theorem pred_lt (t : Fin cfg0.N) : t.val - 1 < cfg0.N := Nat.lt_of_le_of_lt (Nat.sub_le _ _) t.isLt

/-- After an even point the scratch is the softmax block of the point's key and query blocks. -/
theorem scratch_even (c : Dev nD) (t : Fin cfg0.N) (h0 : t.val % 2 = 0) :
    (outsAt0 m c t.val t.isLt).2 = k0_pay1 (iblk m c 0 t) (iblk m c 1 t) := by
  rw [outsAt0_A m c t h0]
  dsimp only
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- After an odd point it is what the point before left. -/
theorem scratch_odd (c : Dev nD) (t : Fin cfg0.N) (h0 : ¬t.val % 2 = 0) :
    (outsAt0 m c t.val t.isLt).2 = (outsAt0 m c (t.val - 1) (pred_lt t)).2 := by
  rw [outsAt0_B m c t h0]
  dsimp only
  rfl

/-- After ANY point the output block is the point's value block against the scratch as the point leaves it. -/
theorem out_eq (c : Dev nD) (t : Fin cfg0.N) :
    (outsAt0 m c t.val t.isLt).1 = k0_pay2 (iblk m c 2 t) (outsAt0 m c t.val t.isLt).2 := by
  by_cases h0 : t.val % 2 = 0
  · rw [scratch_even m c t h0, outsAt0_A m c t h0]
    dsimp only
    exact out_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [scratch_odd m c t h0, outsAt0_B m c t h0]
    dsimp only
    exact out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (pred_lt t)).2

end Cert.KernelIdeal.PointValues

end
-- ==== Proof.Spec.lean ====
/-
  Attention readout, column by column, over the extended reals.

  For a key matrix `K` (64 channels × 9216 memory positions), one query column `Q` (64 channels) and one value row `v`
  (9216 memory positions):
    logit n   = (∑ₖ K k n · Q k) · ⅛            the scaled dot product of memory position n with the query
    colMax    = maxₙ logit n                      folded from −∞
    expo n    = exp (logit n − colMax)
    colSum    = ∑ₙ expo n
    aff n     = expo n / colSum                   the softmax over the memory axis
    readout   = ∑ₙ v n · aff n
  Both programs compute `readout` at every (batch, value channel, query position); they differ in how the scale is
  written (a product with ⅛ against a quotient by 8: one function on every extended real, `div_eight`), in a
  maximum with −∞ the reference takes once more (`max_fold_self`), and in the order of the sums and maxima, which
  the commutative, associative sum and maximum do not see.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The word `8.0` denotes the real 8. -/
theorem ofBits_eight : Ideal.ofBits .f32 0x41000000#32 = ((8 : ℝ) : EReal) := by
  simp [Ideal.ofBits, Ideal.ieee, -EReal.coe_mul]; norm_num

/-- The word `0.125` denotes the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, at the infinities too. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- A fold of `max` from `b` is at least `b`, so one more maximum with `b` changes nothing. -/
theorem max_fold_self {ι : Type} (s : Finset ι) (b : EReal) (f : ι → EReal) :
    max b (s.fold max b f) = s.fold max b f :=
  max_eq_right ((Finset.le_fold_max b).mpr (Or.inl le_rfl))

/-- The value −∞ both programs start their maxima from, as the word they print. -/
abbrev negInf : EReal := Ideal.ofBits .f32 0xFF800000#32

/-- The scaled dot product of memory position `n` with the query column. -/
def logit (K : Fin 64 → Fin 9216 → EReal) (Q : Fin 64 → EReal) (n : Fin 9216) : EReal :=
  (∑ k : Fin 64, K k n * Q k) * Ideal.ofBits .f32 0x3E000000#32

/-- The column's maximum over the memory axis. -/
def colMax (K : Fin 64 → Fin 9216 → EReal) (Q : Fin 64 → EReal) : EReal :=
  (Finset.univ : Finset (Fin 9216)).fold max negInf (logit K Q)

/-- The shifted exponential. -/
def expo (K : Fin 64 → Fin 9216 → EReal) (Q : Fin 64 → EReal) (n : Fin 9216) : EReal :=
  Ideal.exp (logit K Q n - colMax K Q)

/-- The column's normalizer. -/
def colSum (K : Fin 64 → Fin 9216 → EReal) (Q : Fin 64 → EReal) : EReal :=
  ∑ n : Fin 9216, expo K Q n

/-- The softmax over the memory axis, at memory position `n`. -/
def aff (K : Fin 64 → Fin 9216 → EReal) (Q : Fin 64 → EReal) (n : Fin 9216) : EReal :=
  Ideal.div (expo K Q n) (colSum K Q)

/-- The value row read out through the softmax column. -/
def readout (K : Fin 64 → Fin 9216 → EReal) (Q : Fin 64 → EReal) (v : Fin 9216 → EReal) : EReal :=
  ∑ n : Fin 9216, v n * aff K Q n

/-- THE RESULT, before the final re-layout: at (batch b, value channel c, query position q) the readout of value
    row (b, c) through the softmax column of batch b's keys and query column (b, q). -/
def attnOut (A : (⟨3, ![4, 64, 9216]⟩ : Shape).Idx → EReal) (B : (⟨3, ![4, 64, 2304]⟩ : Shape).Idx → EReal)
    (C : (⟨3, ![4, 512, 9216]⟩ : Shape).Idx → EReal) : (⟨3, ![4, 512, 2304]⟩ : Shape).Idx → EReal :=
  fun i => readout (fun k n => A (ix3 (i 0) k n)) (fun k => B (ix3 (i 0) k (i 2))) (fun n => C (ix3 (i 0) (i 1) n))

end Cert.Attn

end
-- ==== Proof.Pay.lean ====
/-
  The body's two payloads, read at an index over the extended reals.

  The first payload, at (memory position n, query column j) of the block: the 64-channel dot product of key column n
  with query column j, scaled by ⅛; minus the maximum of those down column j; exponentiated; divided by the sum of
  those exponentials down column j. That is the softmax column `aff` of the block's keys and its query column j.
  The second payload, at (value row r, query column j): the sum over the 9216 memory positions of the value block's
  row r times the scratch's column j. Narrowing to bf16 is the identity here.
-/
import proofs.«154387_j26774826123748_2_alg».proof.Proof.Gen.KernelIdeal.Skeleton
import proofs.«154387_j26774826123748_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx Cert.Attn

/-! ### The two matrix products, as sums over their one contracted axis -/

/-- Keys against queries. The left operand's axis 1 is the output's row; -/
theorem qk_lhs_1 (i : S9216x256.Idx) (q : dot_S64x9216_S64x256_S9216x256_0_0_1_1_n_n.contr.Idx) : (dot_S64x9216_S64x256_S9216x256_0_0_1_1_n_n.lhsIdx i q 1).val = (i 0).val := by
  unfold DotDims.lhsIdx
  rw [dif_neg (show ¬(1 : Fin S64x9216.rank) ∈ dot_S64x9216_S64x256_S9216x256_0_0_1_1_n_n.lhsBatch by decide),
    dif_pos (show (1 : Fin S64x9216.rank) ∈ dot_S64x9216_S64x256_S9216x256_0_0_1_1_n_n.lhsNonContracting by decide)]
  rfl
/-- the right operand's axis 1 is the output's column; -/
theorem qk_rhs_1 (i : S9216x256.Idx) (q : dot_S64x9216_S64x256_S9216x256_0_0_1_1_n_n.contr.Idx) : (dot_S64x9216_S64x256_S9216x256_0_0_1_1_n_n.rhsIdx i q 1).val = (i 1).val := by
  unfold DotDims.rhsIdx
  rw [dif_neg (show ¬(1 : Fin S64x256.rank) ∈ dot_S64x9216_S64x256_S9216x256_0_0_1_1_n_n.rhsBatch by decide),
    dif_pos (show (1 : Fin S64x256.rank) ∈ dot_S64x9216_S64x256_S9216x256_0_0_1_1_n_n.rhsNonContracting by decide)]
  rfl
/-- and axis 0 of both is the contracted channel. -/
theorem qk_lhs_0 (i : S9216x256.Idx) (q : dot_S64x9216_S64x256_S9216x256_0_0_1_1_n_n.contr.Idx) : (dot_S64x9216_S64x256_S9216x256_0_0_1_1_n_n.lhsIdx i q 0).val = (q ⟨0, by decide⟩).val :=
  dot_S64x9216_S64x256_S9216x256_0_0_1_1_n_n.lhsIdx_val_of_single rfl i q
theorem qk_rhs_0 (i : S9216x256.Idx) (q : dot_S64x9216_S64x256_S9216x256_0_0_1_1_n_n.contr.Idx) : (dot_S64x9216_S64x256_S9216x256_0_0_1_1_n_n.rhsIdx i q 0).val = (q ⟨0, by decide⟩).val :=
  dot_S64x9216_S64x256_S9216x256_0_0_1_1_n_n.rhsIdx_val_of_single rfl i q

/-- So the product at (n, j) sums, over the 64 channels, key (k, n) times query (k, j). -/
theorem qk_apply (a : FVec Ideal S64x9216 .f32) (b : FVec Ideal S64x256 .f32) (n : Fin 9216) (j : Fin 256) :
    matmul dot_S64x9216_S64x256_S9216x256_0_0_1_1_n_n (some .fp32) a b (constant (F := Ideal) S9216x256 .f32 0x00000000#32) (ix2 n j)
      = ∑ k : Fin 64, a (ix2 k n) * b (ix2 k j) := by
  simp only [matmul]
  rw [Ideal.matmul_constant_zero_apply, ← Equiv.sum_comp (contrEquiv1 dot_S64x9216_S64x256_S9216x256_0_0_1_1_n_n 64 rfl rfl).symm]
  refine Finset.sum_congr rfl fun k _ => ?_
  have hk := contrEquiv1_symm_val dot_S64x9216_S64x256_S9216x256_0_0_1_1_n_n 64 rfl rfl k
  have el : dot_S64x9216_S64x256_S9216x256_0_0_1_1_n_n.lhsIdx (ix2 n j) ((contrEquiv1 dot_S64x9216_S64x256_S9216x256_0_0_1_1_n_n 64 rfl rfl).symm k) = ix2 k n :=
    funext fun ax => Fin.ext (by
      match ax with
      | ⟨0, _⟩ => exact (qk_lhs_0 _ _).trans hk
      | ⟨1, _⟩ => exact qk_lhs_1 _ _)
  have er : dot_S64x9216_S64x256_S9216x256_0_0_1_1_n_n.rhsIdx (ix2 n j) ((contrEquiv1 dot_S64x9216_S64x256_S9216x256_0_0_1_1_n_n 64 rfl rfl).symm k) = ix2 k j :=
    funext fun ax => Fin.ext (by
      match ax with
      | ⟨0, _⟩ => exact (qk_rhs_0 _ _).trans hk
      | ⟨1, _⟩ => exact qk_rhs_1 _ _)
  rw [el, er]

/-- Values against the softmax block. The left operand's axis 0 is the output's row; -/
theorem va_lhs_0 (i : S256x256.Idx) (q : dot_S256x9216_S9216x256_S256x256_1_0_0_1_n_n.contr.Idx) : (dot_S256x9216_S9216x256_S256x256_1_0_0_1_n_n.lhsIdx i q 0).val = (i 0).val := by
  unfold DotDims.lhsIdx
  rw [dif_neg (show ¬(0 : Fin S256x9216.rank) ∈ dot_S256x9216_S9216x256_S256x256_1_0_0_1_n_n.lhsBatch by decide),
    dif_pos (show (0 : Fin S256x9216.rank) ∈ dot_S256x9216_S9216x256_S256x256_1_0_0_1_n_n.lhsNonContracting by decide)]
  rfl
/-- the right operand's axis 1 is the output's column; -/
theorem va_rhs_1 (i : S256x256.Idx) (q : dot_S256x9216_S9216x256_S256x256_1_0_0_1_n_n.contr.Idx) : (dot_S256x9216_S9216x256_S256x256_1_0_0_1_n_n.rhsIdx i q 1).val = (i 1).val := by
  unfold DotDims.rhsIdx
  rw [dif_neg (show ¬(1 : Fin S9216x256.rank) ∈ dot_S256x9216_S9216x256_S256x256_1_0_0_1_n_n.rhsBatch by decide),
    dif_pos (show (1 : Fin S9216x256.rank) ∈ dot_S256x9216_S9216x256_S256x256_1_0_0_1_n_n.rhsNonContracting by decide)]
  rfl
/-- and the left's axis 1 and the right's axis 0 are the contracted memory position. -/
theorem va_lhs_1 (i : S256x256.Idx) (q : dot_S256x9216_S9216x256_S256x256_1_0_0_1_n_n.contr.Idx) : (dot_S256x9216_S9216x256_S256x256_1_0_0_1_n_n.lhsIdx i q 1).val = (q ⟨0, by decide⟩).val :=
  dot_S256x9216_S9216x256_S256x256_1_0_0_1_n_n.lhsIdx_val_of_single rfl i q
theorem va_rhs_0 (i : S256x256.Idx) (q : dot_S256x9216_S9216x256_S256x256_1_0_0_1_n_n.contr.Idx) : (dot_S256x9216_S9216x256_S256x256_1_0_0_1_n_n.rhsIdx i q 0).val = (q ⟨0, by decide⟩).val :=
  dot_S256x9216_S9216x256_S256x256_1_0_0_1_n_n.rhsIdx_val_of_single rfl i q

/-- So the product at (r, j) sums, over the 9216 memory positions, value (r, n) times softmax (n, j). -/
theorem va_apply (a : FVec Ideal S256x9216 .bf16) (b : FVec Ideal S9216x256 .bf16) (r : Fin 256) (j : Fin 256) :
    matmul dot_S256x9216_S9216x256_S256x256_1_0_0_1_n_n none a b (constant (F := Ideal) S256x256 .f32 0x00000000#32) (ix2 r j)
      = ∑ n : Fin 9216, a (ix2 r n) * b (ix2 n j) := by
  simp only [matmul]
  rw [Ideal.matmul_constant_zero_apply, ← Equiv.sum_comp (contrEquiv1 dot_S256x9216_S9216x256_S256x256_1_0_0_1_n_n 9216 rfl rfl).symm]
  refine Finset.sum_congr rfl fun k _ => ?_
  have hk := contrEquiv1_symm_val dot_S256x9216_S9216x256_S256x256_1_0_0_1_n_n 9216 rfl rfl k
  have el : dot_S256x9216_S9216x256_S256x256_1_0_0_1_n_n.lhsIdx (ix2 r j) ((contrEquiv1 dot_S256x9216_S9216x256_S256x256_1_0_0_1_n_n 9216 rfl rfl).symm k) = ix2 r k :=
    funext fun ax => Fin.ext (by
      match ax with
      | ⟨0, _⟩ => exact va_lhs_0 _ _
      | ⟨1, _⟩ => exact (va_lhs_1 _ _).trans hk)
  have er : dot_S256x9216_S9216x256_S256x256_1_0_0_1_n_n.rhsIdx (ix2 r j) ((contrEquiv1 dot_S256x9216_S9216x256_S256x256_1_0_0_1_n_n 9216 rfl rfl).symm k) = ix2 k j :=
    funext fun ax => Fin.ext (by
      match ax with
      | ⟨0, _⟩ => exact (va_rhs_0 _ _).trans hk
      | ⟨1, _⟩ => exact va_rhs_1 _ _)
  rw [el, er]

/-! ### A column's maximum and sum, broadcast back down the column -/

/-- The maximum down column `j`, kept as a row and broadcast over the rows, read at any row. -/
theorem colmax_apply (L : FVec Ideal S9216x256 .f32) (n : Fin 9216) (j : Fin 256) :
    broadcastTo S9216x256 (shapeCast S1x256 (multiReduction .maximumf [0] S256 L 0xFF800000#32 reduces_S9216x256_S256 (.inl rfl) rfl) shapeCasts_S256_S1x256) broadcasts_S1x256_S9216x256 (ix2 n j)
      = (Finset.univ : Finset (Fin 9216)).fold max negInf (fun n' => L (ix2 n' j)) := by
  rw [broadcastTo_1b_ab_apply, shapeCast_a_1a_apply]
  refine (Ideal.multiReduction_maximumf_single L 0xFF800000#32 reduces_S9216x256_S256 (.inl rfl) rfl (ix1 j)).trans ?_
  show (Finset.univ : Finset (Fin 9216)).fold max negInf _ = _
  refine Finset.fold_congr fun n' _ => ?_
  exact congrArg L (funext fun a => Fin.ext (by match a with | ⟨0, _⟩ => rfl | ⟨1, _⟩ => rfl))

/-- The sum down column `j`, likewise. -/
theorem colsum_apply (E : FVec Ideal S9216x256 .f32) (n : Fin 9216) (j : Fin 256) :
    broadcastTo S9216x256 (shapeCast S1x256 (multiReduction .add [0] S256 E 0x00000000#32 reduces_S9216x256_S256 (.inl rfl) rfl) shapeCasts_S256_S1x256) broadcasts_S1x256_S9216x256 (ix2 n j)
      = ∑ n' : Fin 9216, E (ix2 n' j) := by
  rw [broadcastTo_1b_ab_apply, shapeCast_a_1a_apply]
  refine (Ideal.multiReduction_add_single E 0x00000000#32 reduces_S9216x256_S256 (.inl rfl) rfl (ix1 j)).trans ?_
  show ∑ n' : Fin 9216, _ = _
  refine Finset.sum_congr rfl fun n' _ => ?_
  exact congrArg E (funext fun a => Fin.ext (by match a with | ⟨0, _⟩ => rfl | ⟨1, _⟩ => rfl))

/-! ### The payloads -/

/-- The block of scaled logits. -/
def logits (x0 : Vec Ideal S1x64x9216 .f32) (x1 : Vec Ideal S1x64x256 .f32) : FVec Ideal S9216x256 .f32 :=
  mulf (matmul dot_S64x9216_S64x256_S9216x256_0_0_1_1_n_n (some .fp32) (shapeCast S64x9216 x0 shapeCasts_S1x64x9216_S64x9216 : FVec Ideal S64x9216 .f32)
      (shapeCast S64x256 x1 shapeCasts_S1x64x256_S64x256 : FVec Ideal S64x256 .f32) (constant S9216x256 .f32 0x00000000#32))
    (broadcast S9216x256 (Scalar.ofBits .f32 0x3E000000#32))

theorem logits_apply (x0 : Vec Ideal S1x64x9216 .f32) (x1 : Vec Ideal S1x64x256 .f32) (n : Fin 9216) (j : Fin 256) :
    logits x0 x1 (ix2 n j) = logit (fun k n' => x0 (ix3 (0 : Fin 1) k n')) (fun k => x1 (ix3 (0 : Fin 1) k j)) n := by
  unfold logits logit
  rw [mulf_apply, qk_apply]
  refine congrArg (· * _) (Finset.sum_congr rfl fun k _ => ?_)
  rw [shapeCast_1ab_ab_apply, shapeCast_1ab_ab_apply]

/-- The shifted exponentials of a block. -/
def expos (L : FVec Ideal S9216x256 .f32) : FVec Ideal S9216x256 .f32 :=
  exp (subf L (broadcastTo S9216x256 (shapeCast S1x256 (multiReduction .maximumf [0] S256 L 0xFF800000#32 reduces_S9216x256_S256 (.inl rfl) rfl) shapeCasts_S256_S1x256) broadcasts_S1x256_S9216x256))

theorem expos_apply (L : FVec Ideal S9216x256 .f32) (n : Fin 9216) (j : Fin 256) :
    expos L (ix2 n j) = Ideal.exp (L (ix2 n j) - (Finset.univ : Finset (Fin 9216)).fold max negInf (fun n' => L (ix2 n' j))) := by
  unfold expos
  show Ideal.exp (L (ix2 n j) - _) = _
  rw [colmax_apply]

/-- The first payload is the softmax block of the scaled logits. -/
theorem pay1_eq (x0 : Vec Ideal S1x64x9216 .f32) (x1 : Vec Ideal S1x64x256 .f32) :
    k0_pay1 (F := Ideal) x0 x1
      = divf (expos (logits x0 x1)) (broadcastTo S9216x256 (shapeCast S1x256 (multiReduction .add [0] S256 (expos (logits x0 x1)) 0x00000000#32 reduces_S9216x256_S256 (.inl rfl) rfl) shapeCasts_S256_S1x256) broadcasts_S1x256_S9216x256) := by
  unfold k0_pay1
  show shapeCast S9216x256 (truncf .bf16 (divf (expos (logits x0 x1)) (broadcastTo S9216x256 (shapeCast S1x256 (multiReduction .add [0] S256 (expos (logits x0 x1)) 0x00000000#32 reduces_S9216x256_S256 (.inl rfl) rfl) shapeCasts_S256_S1x256) broadcasts_S1x256_S9216x256)) bitsLt_bf16_f32) shapeCasts_S9216x256_S9216x256 = _
  exact shapeCast_self _ _

/-- THE FIRST PAYLOAD AT AN INDEX: the softmax column of the block's keys and query column `j`, at memory position `n`. -/
theorem pay1_apply (x0 : Vec Ideal S1x64x9216 .f32) (x1 : Vec Ideal S1x64x256 .f32) (n : Fin 9216) (j : Fin 256) :
    k0_pay1 (F := Ideal) x0 x1 (ix2 n j)
      = aff (fun k n' => x0 (ix3 (0 : Fin 1) k n')) (fun k => x1 (ix3 (0 : Fin 1) k j)) n := by
  rw [pay1_eq, divf_apply, colsum_apply]
  unfold aff colSum expo colMax
  simp only [expos_apply, logits_apply]

/-- THE SECOND PAYLOAD AT AN INDEX: value row `r` against the scratch's column `j`. -/
theorem pay2_apply (x2 : Vec Ideal S1x256x9216 .f32) (s : Vec Ideal S9216x256 .bf16) (r : Fin 256) (j : Fin 256) :
    k0_pay2 (F := Ideal) x2 s (ix3 (0 : Fin 1) r j) = ∑ n : Fin 9216, x2 (ix3 (0 : Fin 1) r n) * s (ix2 n j) := by
  unfold k0_pay2
  rw [shapeCast_ab_1ab_apply, va_apply]
  refine Finset.sum_congr rfl fun n _ => ?_
  rw [truncf_apply, shapeCast_1ab_ab_apply]

end Cert.KernelIdeal.Pay

end
-- ==== Proof.Blocks.lean ====
/-
  Where each window's block sits, point by point.

  Point number t of the (4, 9, 2) grid has batch t / 18, query tile (t / 2) mod 9 and value tile t mod 2. The key
  window's block is batch t/18's whole [64, 9216] slab; the query window's is that batch's columns
  256·((t/2) mod 9) … +255; the value window's is that batch's rows 256·(t mod 2) … +255; the output window's is the
  [256, 256] tile at those rows and those columns. A block's coordinate along an axis is always
  (block index) × (block extent) + (coordinate inside the block).
-/
import proofs.«154387_j26774826123748_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

theorem lt72 (t : Fin cfg0.N) : t.val < 72 := lt_of_lt_of_eq t.isLt (show cfg0.N = 72 from N_0)

/-- The batch of point `t`. -/
def bOf (t : Fin cfg0.N) : Fin 4 := ⟨t.val / 18, by have := lt72 t; omega⟩
/-- The query position of column `j` of point `t`'s query tile. -/
def qOf (t : Fin cfg0.N) (j : Fin 256) : Fin 2304 := ⟨t.val / 2 % 9 * 256 + j.val, by have := j.isLt; omega⟩
/-- The value channel of row `r` of point `t`'s value tile. -/
def cOf (t : Fin cfg0.N) (r : Fin 256) : Fin 512 := ⟨t.val % 2 * 256 + r.val, by have := r.isLt; omega⟩

/-- The printed index maps, decided over the grid. -/
theorem idx_facts : ∀ t : Fin cfg0.N,
    win0_0.index t (0 : Fin 3) = t.val / 18 ∧ win0_0.index t (1 : Fin 3) = 0 ∧ win0_0.index t (2 : Fin 3) = 0
    ∧ win0_1.index t (0 : Fin 3) = t.val / 18 ∧ win0_1.index t (1 : Fin 3) = 0 ∧ win0_1.index t (2 : Fin 3) = t.val / 2 % 9
    ∧ win0_2.index t (0 : Fin 3) = t.val / 18 ∧ win0_2.index t (1 : Fin 3) = t.val % 2 ∧ win0_2.index t (2 : Fin 3) = 0
    ∧ win0_3.index t (0 : Fin 3) = t.val / 18 ∧ win0_3.index t (1 : Fin 3) = t.val % 2 ∧ win0_3.index t (2 : Fin 3) = t.val / 2 % 9 :=
  (by decide +kernel : ∀ t : Fin grid0.N, _)

/-- The key block at (channel k, memory position n) is the keys at (batch, k, n). -/
theorem key_blk (c : Dev nD) (t : Fin cfg0.N) (k : Fin 64) (n : Fin 9216) :
    iblk m c 0 t (ix3 (0 : Fin 1) k n) = V m c main_v0 (ix3 (bOf t) k n) := by
  obtain ⟨e0, e1, e2, -⟩ := idx_facts t
  unfold iblk
  rw [View.read_apply]
  show V m c main_v0 _ = V m c main_v0 _
  refine congrArg _ (funext fun a => Fin.ext ?_)
  match a with
  | ⟨0, _⟩ => show win0_0.index t (0 : Fin 3) * 1 + 1 * (0 : Fin 1).val = t.val / 18; rw [e0]; simp
  | ⟨1, _⟩ => show win0_0.index t (1 : Fin 3) * 64 + 1 * k.val = k.val; rw [e1]; omega
  | ⟨2, _⟩ => show win0_0.index t (2 : Fin 3) * 9216 + 1 * n.val = n.val; rw [e2]; omega

/-- The query block at (channel k, column j) is the queries at (batch, k, the tile's column j). -/
theorem qry_blk (c : Dev nD) (t : Fin cfg0.N) (k : Fin 64) (j : Fin 256) :
    iblk m c 1 t (ix3 (0 : Fin 1) k j) = V m c main_v1 (ix3 (bOf t) k (qOf t j)) := by
  obtain ⟨-, -, -, e0, e1, e2, -⟩ := idx_facts t
  unfold iblk
  rw [View.read_apply]
  show V m c main_v1 _ = V m c main_v1 _
  refine congrArg _ (funext fun a => Fin.ext ?_)
  match a with
  | ⟨0, _⟩ => show win0_1.index t (0 : Fin 3) * 1 + 1 * (0 : Fin 1).val = t.val / 18; rw [e0]; simp
  | ⟨1, _⟩ => show win0_1.index t (1 : Fin 3) * 64 + 1 * k.val = k.val; rw [e1]; omega
  | ⟨2, _⟩ => show win0_1.index t (2 : Fin 3) * 256 + 1 * j.val = t.val / 2 % 9 * 256 + j.val; rw [e2]; omega

/-- The value block at (row r, memory position n) is the values at (batch, the tile's row r, n). -/
theorem val_blk (c : Dev nD) (t : Fin cfg0.N) (r : Fin 256) (n : Fin 9216) :
    iblk m c 2 t (ix3 (0 : Fin 1) r n) = V m c main_v2 (ix3 (bOf t) (cOf t r) n) := by
  obtain ⟨-, -, -, -, -, -, e0, e1, e2, -⟩ := idx_facts t
  unfold iblk
  rw [View.read_apply]
  show V m c main_v2 _ = V m c main_v2 _
  refine congrArg _ (funext fun a => Fin.ext ?_)
  match a with
  | ⟨0, _⟩ => show win0_2.index t (0 : Fin 3) * 1 + 1 * (0 : Fin 1).val = t.val / 18; rw [e0]; simp
  | ⟨1, _⟩ => show win0_2.index t (1 : Fin 3) * 256 + 1 * r.val = t.val % 2 * 256 + r.val; rw [e1]; omega
  | ⟨2, _⟩ => show win0_2.index t (2 : Fin 3) * 9216 + 1 * n.val = n.val; rw [e2]; omega

/-- The output block's (row r, column j) sits at (batch, the value tile's row r, the query tile's column j). -/
theorem out_emb (t : Fin cfg0.N) (r : Fin 256) (j : Fin 256) :
    ((cfg0.win 3).blk t).view.emb (ix3 (0 : Fin 1) r j) = ix3 (bOf t) (cOf t r) (qOf t j) := by
  obtain ⟨-, -, -, -, -, -, -, -, -, e0, e1, e2⟩ := idx_facts t
  refine funext fun a => Fin.ext ?_
  match a with
  | ⟨0, _⟩ => show win0_3.index t (0 : Fin 3) * 1 + 1 * (0 : Fin 1).val = t.val / 18; rw [e0]; simp
  | ⟨1, _⟩ => show win0_3.index t (1 : Fin 3) * 256 + 1 * r.val = t.val % 2 * 256 + r.val; rw [e1]; omega
  | ⟨2, _⟩ => show win0_3.index t (2 : Fin 3) * 256 + 1 * j.val = t.val / 2 % 9 * 256 + j.val; rw [e2]; omega

end Cert.KernelIdeal.Blocks

end
-- ==== Proof.KValue.lean ====
/-
  The kernel's result, as one function of its arguments.

  After every grid point the carried scratch's column j is the softmax column of the point's batch and of the query
  position that column j of the point's query tile stands for: at an even point it has just been computed from the
  point's key and query blocks; at an odd point it is inherited from the even point before, whose batch and query
  tile are the same. So the output block the point writes back is, at (row r, column j), the readout of the value row
  that row r of the point's value tile stands for — block t of the whole-array function `attnOut` of the three arrays
  the region finds. The 72 output blocks tile the [4, 512, 2304] array, so it ends holding `attnOut`; the arrays the
  region finds are the reshaped arguments, and the two host operations after the region re-lay the result out.
-/
import proofs.«154387_j26774826123748_2_alg».proof.Proof.PointValues
import proofs.«154387_j26774826123748_2_alg».proof.Proof.Pay
import proofs.«154387_j26774826123748_2_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.PointValues Cert.KernelIdeal.Pay Cert.KernelIdeal.Blocks Cert.Attn

variable (m : (ℓ : Loc nD τ sig) → Buf (Elt Ideal) ℓ) (ρ : Dev nD → PrngReg)

/-- Batch `b`'s keys as the region finds them, channel by memory position. -/
abbrev KV (c : Dev nD) (b : Fin 4) : Fin 64 → Fin 9216 → EReal := fun k n => V m c main_v0 (ix3 b k n)
/-- Batch `b`'s query column `q` as the region finds it. -/
abbrev QV (c : Dev nD) (b : Fin 4) (q : Fin 2304) : Fin 64 → EReal := fun k => V m c main_v1 (ix3 b k q)

/-! ### The carried scratch -/

/-- After an even point: column j of the scratch is the softmax column just computed. -/
theorem scratch_even_at (c : Dev nD) (t : Fin cfg0.N) (h0 : t.val % 2 = 0) (n : Fin 9216) (j : Fin 256) :
    (outsAt0 m c t.val t.isLt).2 (ix2 n j) = aff (KV m c (bOf t)) (QV m c (bOf t) (qOf t j)) n := by
  rw [scratch_even m c t h0]
  refine (pay1_apply (iblk m c 0 t) (iblk m c 1 t) n j).trans ?_
  exact congrArg₂ (fun K Q => aff K Q n) (funext fun k => funext fun n' => key_blk m c t k n')
    (funext fun k => qry_blk m c t k j)

/-- After ANY point: an odd point inherits the scratch of the even point before it, of the same batch and query tile. -/
theorem scratch_at (c : Dev nD) (t : Fin cfg0.N) (n : Fin 9216) (j : Fin 256) :
    (outsAt0 m c t.val t.isLt).2 (ix2 n j) = aff (KV m c (bOf t)) (QV m c (bOf t) (qOf t j)) n := by
  by_cases h0 : t.val % 2 = 0
  · exact scratch_even_at m c t h0 n j
  · have hlt := lt72 t
    have e := scratch_even_at m c ⟨t.val - 1, pred_lt t⟩ (by show (t.val - 1) % 2 = 0; omega) n j
    have hb : bOf ⟨t.val - 1, pred_lt t⟩ = bOf t := Fin.ext (by show (t.val - 1) / 18 = t.val / 18; omega)
    have hq : qOf ⟨t.val - 1, pred_lt t⟩ j = qOf t j :=
      Fin.ext (by show (t.val - 1) / 2 % 9 * 256 + j.val = t.val / 2 % 9 * 256 + j.val; omega)
    rw [hb, hq] at e
    rw [scratch_odd m c t h0]
    exact e

/-! ### The output block -/

/-- After any point the output block at (row r, column j) is the readout of the value row that row stands for. -/
theorem out_at (c : Dev nD) (t : Fin cfg0.N) (r : Fin 256) (j : Fin 256) :
    (outsAt0 m c t.val t.isLt).1 (ix3 (0 : Fin 1) r j)
      = readout (KV m c (bOf t)) (QV m c (bOf t) (qOf t j)) (fun n => V m c main_v2 (ix3 (bOf t) (cOf t r) n)) := by
  rw [out_eq m c t]
  refine (pay2_apply (iblk m c 2 t) (outsAt0 m c t.val t.isLt).2 r j).trans ?_
  unfold readout
  refine Finset.sum_congr rfl fun n _ => ?_
  rw [val_blk, scratch_at]

/-- WHAT POINT `t` WRITES BACK is block `t` of `attnOut` of the arrays the region finds. -/
theorem flushed_eq (c : Dev nD) (t : Fin cfg0.N) :
    (dats m 0 c).flushed 3 t
      = ((cfg0.win 3).blk t).view.read (Elt Ideal) (attnOut (V m c main_v0) (V m c main_v1) (V m c main_v2)) := by
  show (cfg0.win 3).cut (grid0.coords t) ((dats m 0 c).after 3 t) = _
  rw [after0_3]
  funext (y : S1x256x256.Idx)
  obtain ⟨u, r, j, rfl⟩ : ∃ (u : Fin 1) (r : Fin 256) (j : Fin 256), y = ix3 u r j := ⟨y 0, y 1, y 2, eq_ix3 y⟩
  obtain rfl : u = 0 := Subsingleton.elim _ _
  show (outsAt0 m c t.val t.isLt).1 (ix3 (0 : Fin 1) r j)
    = attnOut (V m c main_v0) (V m c main_v1) (V m c main_v2) (((cfg0.win 3).blk t).view.emb (ix3 (0 : Fin 1) r j))
  rw [out_at, out_emb]
  rfl

/-! ### The cover -/

/-- An index of the array is in point `t`'s block iff each coordinate is in the block's range on its axis. -/
theorem mem_blk (t : Fin cfg0.N) (i : S4x512x2304.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v3).slice (win0_3.rect t)).set ↔ _
  rw [View.set_slice_whole, Rect.mem_set_unit]
  exact Iff.rfl

/-- Every index is in the block of the point with its batch, its value tile and its query tile. -/
theorem cover (i : S4x512x2304.Idx) :
    ∃ t : Fin cfg0.N, (cfg0.win 3).flush t = true ∧ i ∈ ((cfg0.win 3).blk t).view.set := by
  have h0 : (i 0).val < 4 := (i 0).isLt
  have h1 : (i 1).val < 512 := (i 1).isLt
  have h2 : (i 2).val < 2304 := (i 2).isLt
  have hN : cfg0.N = 72 := N_0
  refine ⟨⟨(i 0).val * 18 + (i 2).val / 256 * 2 + (i 1).val / 256, by rw [hN]; omega⟩, flush0_3 _, ?_⟩
  rw [mem_blk]
  obtain ⟨-, -, -, -, -, -, -, -, -, e0, e1, e2⟩ :=
    idx_facts ⟨(i 0).val * 18 + (i 2).val / 256 * 2 + (i 1).val / 256, by rw [hN]; omega⟩
  intro a
  match a with
  | ⟨0, _⟩ =>
    show win0_3.index _ (0 : Fin 3) * 1 ≤ (i 0).val ∧ (i 0).val < win0_3.index _ (0 : Fin 3) * 1 + 1
    rw [e0]; show ((i 0).val * 18 + (i 2).val / 256 * 2 + (i 1).val / 256) / 18 * 1 ≤ _ ∧ _ < ((i 0).val * 18 + (i 2).val / 256 * 2 + (i 1).val / 256) / 18 * 1 + 1
    omega
  | ⟨1, _⟩ =>
    show win0_3.index _ (1 : Fin 3) * 256 ≤ (i 1).val ∧ (i 1).val < win0_3.index _ (1 : Fin 3) * 256 + 256
    rw [e1]; show ((i 0).val * 18 + (i 2).val / 256 * 2 + (i 1).val / 256) % 2 * 256 ≤ _ ∧ _ < ((i 0).val * 18 + (i 2).val / 256 * 2 + (i 1).val / 256) % 2 * 256 + 256
    omega
  | ⟨2, _⟩ =>
    show win0_3.index _ (2 : Fin 3) * 256 ≤ (i 2).val ∧ (i 2).val < win0_3.index _ (2 : Fin 3) * 256 + 256
    rw [e2]; show ((i 0).val * 18 + (i 2).val / 256 * 2 + (i 1).val / 256) / 2 % 9 * 256 ≤ _ ∧ _ < ((i 0).val * 18 + (i 2).val / 256 * 2 + (i 1).val / 256) / 2 % 9 * 256 + 256
    omega

/-- THE ARRAY after the run: `attnOut` of the arrays the region finds. -/
theorem final (c : Dev nD) :
    (dats m 0 c).arrAt 3 cfg0.N = attnOut (V m c main_v0) (V m c main_v1) (V m c main_v2) :=
  (dats m 0 c).arrAt_eq_of_cover 3 _ (fun t _ => flushed_eq m c t) cover

/-! ### The host operations around the region -/

/-- The arrays the region finds are the reshaped arguments. -/
theorem V_keys (c : Dev nD) : (V m c main_v0 : S4x64x9216.Idx → EReal)
    = shapeCast S4x64x9216 (m ((c : Thread nD τ).loc main_arg0)) shapeCasts_S4x64x4x48x48_S4x64x9216 := by
  show StableHlo.after hostOps0 (fun b => m (c, b)) (Proc.devRef .tc main_v0) = _
  after_results; rfl
theorem V_queries (c : Dev nD) : (V m c main_v1 : S4x64x2304.Idx → EReal)
    = shapeCast S4x64x2304 (m ((c : Thread nD τ).loc main_arg1)) shapeCasts_S4x64x1x48x48_S4x64x2304 := by
  show StableHlo.after hostOps0 (fun b => m (c, b)) (Proc.devRef .tc main_v1) = _
  after_results; rfl
theorem V_values (c : Dev nD) : (V m c main_v2 : S4x512x9216.Idx → EReal)
    = shapeCast S4x512x9216 (m ((c : Thread nD τ).loc main_arg2)) shapeCasts_S4x512x4x48x48_S4x512x9216 := by
  show StableHlo.after hostOps0 (fun b => m (c, b)) (Proc.devRef .tc main_v2) = _
  after_results; rfl

/-- The final re-layout both programs end with: [4, 512, 2304] → [4, 512, 1, 48, 48] → [4, 1, 512, 48, 48]. -/
def relayout (y : S4x512x2304.Idx → EReal) : S4x1x512x48x48.Idx → EReal :=
  transpose S4x1x512x48x48 [0, 2, 1, 3, 4] (shapeCast S4x512x1x48x48 y shapeCasts_S4x512x2304_S4x512x1x48x48)
    transposes_S4x512x1x48x48_S4x1x512x48x48_0_2_1_3_4

/-- THE RESULT: the re-laid-out attention readout of the three reshaped arguments. -/
def result (c : Dev nD) : Buf (Elt Ideal) ((c : Thread nD τ).loc main_v5) :=
  relayout (attnOut
    (shapeCast S4x64x9216 (m ((c : Thread nD τ).loc main_arg0)) shapeCasts_S4x64x4x48x48_S4x64x9216)
    (shapeCast S4x64x2304 (m ((c : Thread nD τ).loc main_arg1)) shapeCasts_S4x64x1x48x48_S4x64x2304)
    (shapeCast S4x512x9216 (m ((c : Thread nD τ).loc main_arg2)) shapeCasts_S4x512x4x48x48_S4x512x9216))

/-- What the two host operations after the region leave in the result buffer. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3)
      = attnOut (V m c main_v0) (V m c main_v1) (V m c main_v2) :=
    (Pipeline.withArrays_arr spec0 launch0.win.arr_inj c _ _ 3).trans (final m c)
  unfold result relayout
  rw [← V_keys m c, ← V_queries m c, ← V_values m c, ← hw]
  rfl

/-! ### The run, read -/

/-- Every weakly fair execution of the kernel's program terminates with the result buffer at `result` and the three
    arguments as launched. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefSide.lean ====
/-
  The reference, stage by stage, is the column-by-column attention readout.

  Its logits are the batched product of the reshaped keys divided by 8 (the product with ⅛: `div_eight`); its softmax
  over the memory axis takes the column maximum from −∞, once more against −∞ (no change: `max_fold_self`), the
  shifted exponentials, their sum from zero, the quotient; its second batched product reads each value row out
  through that column. So before the final re-layout its result is `attnOut` of the three reshaped arguments.
-/
import proofs.«154387_j26774826123748_2_alg».proof.Proof.Gen.ReferenceIdeal.Read
import proofs.«154387_j26774826123748_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Attn

variable (x0 : (⟨S4x64x4x48x48, .f32⟩ : BufTy).Contents (Elt Ideal))
variable (x1 : (⟨S4x64x1x48x48, .f32⟩ : BufTy).Contents (Elt Ideal))
variable (x2 : (⟨S4x512x4x48x48, .f32⟩ : BufTy).Contents (Elt Ideal))

/-- Batch `b`'s keys, channel by memory position. -/
abbrev Kb (b : Fin 4) : Fin 64 → Fin 9216 → EReal := fun k n => val_main_v0 (F := Ideal) x0 (ix3 b k n)
/-- Batch `b`'s query column `q`. -/
abbrev Qb (b : Fin 4) (q : Fin 2304) : Fin 64 → EReal := fun k => val_main_v1 (F := Ideal) x1 (ix3 b k q)

/-! ### The operand indices, by coordinates -/

theorem lidx2 (b : Fin 4) (n : Fin 9216) (q : Fin 2304) (k : Fin 64) : lidx_main_v2 (ix3 b n q) k = ix3 b k n :=
  funext fun a => Fin.ext (by match a with | ⟨0, _⟩ => rfl | ⟨1, _⟩ => rfl | ⟨2, _⟩ => rfl)
theorem ridx2 (b : Fin 4) (n : Fin 9216) (q : Fin 2304) (k : Fin 64) : ridx_main_v2 (ix3 b n q) k = ix3 b k q :=
  funext fun a => Fin.ext (by match a with | ⟨0, _⟩ => rfl | ⟨1, _⟩ => rfl | ⟨2, _⟩ => rfl)
theorem idx89 (b : Fin 4) (n : Fin 9216) (q : Fin 2304) : idx_main_v8 (idx_main_v9 (ix3 b n q)) = ix2 b q :=
  funext fun a => Fin.ext (by match a with | ⟨0, _⟩ => rfl | ⟨1, _⟩ => rfl)
theorem idx1314 (b : Fin 4) (n : Fin 9216) (q : Fin 2304) : idx_main_v13 (idx_main_v14 (ix3 b n q)) = ix2 b q :=
  funext fun a => Fin.ext (by match a with | ⟨0, _⟩ => rfl | ⟨1, _⟩ => rfl)
theorem idx12 (b : Fin 4) (q : Fin 2304) (k : Fin 9216) : idx_main_v12 (ix2 b q) k = ix3 b k q :=
  funext fun a => Fin.ext (by match a with | ⟨0, _⟩ => rfl | ⟨1, _⟩ => rfl | ⟨2, _⟩ => rfl)
theorem lidx17 (b : Fin 4) (c : Fin 512) (q : Fin 2304) (k : Fin 9216) : lidx_main_v17 (ix3 b c q) k = ix3 b c k :=
  funext fun a => Fin.ext (by match a with | ⟨0, _⟩ => rfl | ⟨1, _⟩ => rfl | ⟨2, _⟩ => rfl)
theorem ridx17 (b : Fin 4) (c : Fin 512) (q : Fin 2304) (k : Fin 9216) : ridx_main_v17 (ix3 b c q) k = ix3 b k q :=
  funext fun a => Fin.ext (by match a with | ⟨0, _⟩ => rfl | ⟨1, _⟩ => rfl | ⟨2, _⟩ => rfl)

/-! ### The stages -/

/-- The scaled logits: the batched product over the 64 channels, divided by 8. -/
theorem v4_at (b : Fin 4) (n : Fin 9216) (q : Fin 2304) :
    val_main_v4 (F := Ideal) x0 x1 (ix3 b n q) = logit (Kb x0 b) (Qb x1 b q) n := by
  rw [val_main_v4_apply, val_main_v2_apply, val_main_v3_apply, val_main_cst_apply]
  show Ideal.div _ (Ideal.ofBits .f32 0x41000000#32) = _
  rw [div_eight]
  unfold logit
  refine congrArg (· * _) (Finset.sum_congr rfl fun k _ => ?_)
  rw [lidx2, ridx2]

/-- The column maximum: the reduce over the memory axis is the fold of `max` from −∞ over its 9216 positions. -/
theorem v5_at (b : Fin 4) (q : Fin 2304) :
    val_main_v5 (F := Ideal) x0 x1 (ix2 b q) = colMax (Kb x0 b) (Qb x1 b q) := by
  unfold val_main_v5
  rw [Host.reduce_eq_fold_single FloatOps.maximumf _ _ reducesTo_S4x9216x2304_S4x2304_d1 (by decide) h_S_]
  unfold colMax
  show (Finset.univ : Finset (Fin 9216)).fold max negInf _ = _
  refine Finset.fold_congr fun n _ => ?_
  show val_main_v4 (F := Ideal) x0 x1 _ = _
  rw [← v4_at x0 x1 b n q]
  exact congrArg _ (funext fun a => Fin.ext (by match a with | ⟨0, _⟩ => rfl | ⟨1, _⟩ => rfl | ⟨2, _⟩ => rfl))

/-- One more maximum with −∞ leaves it. -/
theorem v7_at (b : Fin 4) (q : Fin 2304) :
    val_main_v7 (F := Ideal) x0 x1 (ix2 b q) = colMax (Kb x0 b) (Qb x1 b q) := by
  rw [val_main_v7_apply, val_main_v6_apply, val_main_cst_1_apply, v5_at]
  show max negInf (colMax _ _) = _
  unfold colMax
  exact max_fold_self _ _ _

/-- Broadcast back over the memory axis. -/
theorem v9_at (b : Fin 4) (n : Fin 9216) (q : Fin 2304) :
    val_main_v9 (F := Ideal) x0 x1 (ix3 b n q) = colMax (Kb x0 b) (Qb x1 b q) := by
  rw [val_main_v9_apply, val_main_v8_apply, idx89, v7_at]

/-- The shifted exponentials. -/
theorem v11_at (b : Fin 4) (n : Fin 9216) (q : Fin 2304) :
    val_main_v11 (F := Ideal) x0 x1 (ix3 b n q) = expo (Kb x0 b) (Qb x1 b q) n := by
  rw [val_main_v11_apply, val_main_v10_apply, v4_at, v9_at]
  rfl

/-- Their sum over the memory axis, from zero. -/
theorem v12_at (b : Fin 4) (q : Fin 2304) :
    val_main_v12 (F := Ideal) x0 x1 (ix2 b q) = colSum (Kb x0 b) (Qb x1 b q) := by
  rw [val_main_v12_apply, val_main_cst_2_apply]
  show Ideal.ofBits .f32 0x00000000#32 + _ = _
  rw [Ideal.ofBits_zero_f32, zero_add]
  unfold colSum
  refine Finset.sum_congr rfl fun k _ => ?_
  rw [idx12, v11_at]

theorem v14_at (b : Fin 4) (n : Fin 9216) (q : Fin 2304) :
    val_main_v14 (F := Ideal) x0 x1 (ix3 b n q) = colSum (Kb x0 b) (Qb x1 b q) := by
  rw [val_main_v14_apply, val_main_v13_apply, idx1314, v12_at]

/-- The softmax over the memory axis. -/
theorem v15_at (b : Fin 4) (n : Fin 9216) (q : Fin 2304) :
    val_main_v15 (F := Ideal) x0 x1 (ix3 b n q) = aff (Kb x0 b) (Qb x1 b q) n := by
  rw [val_main_v15_apply, v11_at, v14_at]
  rfl

/-- THE REFERENCE BEFORE ITS FINAL RE-LAYOUT: the readout of each reshaped value row through the softmax column. -/
theorem v17_eq :
    val_main_v17 (F := Ideal) x0 x1 x2
      = attnOut (val_main_v0 (F := Ideal) x0) (val_main_v1 (F := Ideal) x1) (val_main_v16 (F := Ideal) x2) := by
  funext i
  obtain ⟨b, c, q, rfl⟩ : ∃ (b : Fin 4) (c : Fin 512) (q : Fin 2304), i = ix3 b c q := ⟨i 0, i 1, i 2, eq_ix3 i⟩
  rw [val_main_v17_apply]
  show _ = readout (Kb x0 b) (Qb x1 b q) (fun n => val_main_v16 (F := Ideal) x2 (ix3 b c n))
  unfold readout
  refine Finset.sum_congr rfl fun k _ => ?_
  rw [lidx17, ridx17, v15_at]

/-- THE REFERENCE'S RESULT: that readout, re-laid out to [4, 1, 512, 48, 48]. -/
theorem v19_eq :
    val_main_v19 (F := Ideal) x0 x1 x2
      = transpose S4x1x512x48x48 [0, 2, 1, 3, 4]
          (shapeCast S4x512x1x48x48
            (attnOut (val_main_v0 (F := Ideal) x0) (val_main_v1 (F := Ideal) x1) (val_main_v16 (F := Ideal) x2))
            shapeCasts_S4x512x2304_S4x512x1x48x48)
          transposes_S4x512x1x48x48_S4x1x512x48x48_0_2_1_3_4 := by
  unfold val_main_v19 val_main_v18
  rw [v17_eq]

end Cert.ReferenceIdeal.RefValue

end
-- ==== Proof.lean ====
/-
  Memory-readout attention, tiled, against its plain formulation.

  The kernel's program reshapes keys [4, 64, 9216], queries [4, 64, 2304] and values [4, 512, 9216] out of its three
  arguments and walks a (batch, query tile, value tile) grid of 4 × 9 × 2 points. At a point with value tile 0 it
  computes, into a scratch it keeps, the softmax over the memory axis of ⅛ · keysᵀ · (the tile's 256 query columns);
  at every point it multiplies the tile's 256 value rows into that scratch and writes the [256, 256] product back as
  one block of the [4, 512, 2304] result, which two host operations then re-lay out to [4, 1, 512, 48, 48]. The
  reference computes the same softmax of keysᵀ · queries / 8 for all columns at once, multiplies the values in, and
  re-lays the result out the same way.

  Over the extended reals both are one function of the arguments: at (batch b, value channel c, query position q),
      ∑ₙ values[b, c, n] · exp(ℓₙ − maxₘ ℓₘ) / ∑ₘ exp(ℓₘ − maxₘ' ℓₘ'),   ℓₙ = ⅛ · ∑ₖ keys[b, k, n] · queries[b, k, q].
  The product with ⅛ is the quotient by 8 on every extended real; the reference's one further maximum with −∞ changes
  nothing; sums and maxima are taken over the same index sets; narrowing to bf16 is the identity at this instance. No
  step uses that the inputs are finite. The tiling enters only through which block of the result each grid point
  writes, and through the scratch an odd point inherits from the even point before it, of the same batch and query
  tile.

  The three frames are the generated ones (the reference's is its generated run with the result dropped); the ideal
  pass rewrote nothing, so the idealization claim is trivial.
-/
import proofs.«154387_j26774826123748_2_alg».proof.Defs
import proofs.«154387_j26774826123748_2_alg».proof.Proof.Gen.Kernel
import proofs.«154387_j26774826123748_2_alg».proof.Proof.Gen.Kernel.Skeleton
import proofs.«154387_j26774826123748_2_alg».proof.Proof.Gen.Kernel.Launch
import proofs.«154387_j26774826123748_2_alg».proof.Proof.Gen.Kernel.Points
import proofs.«154387_j26774826123748_2_alg».proof.Proof.Gen.Kernel.Frame
import proofs.«154387_j26774826123748_2_alg».proof.Proof.Gen.KernelIdeal
import proofs.«154387_j26774826123748_2_alg».proof.Proof.Gen.KernelIdeal.Skeleton
import proofs.«154387_j26774826123748_2_alg».proof.Proof.Gen.KernelIdeal.Launch
import proofs.«154387_j26774826123748_2_alg».proof.Proof.Gen.KernelIdeal.Points
import proofs.«154387_j26774826123748_2_alg».proof.Proof.Gen.KernelIdeal.Frame
import proofs.«154387_j26774826123748_2_alg».proof.Proof.Gen.ReferenceIdeal
import proofs.«154387_j26774826123748_2_alg».proof.Proof.Gen.ReferenceIdeal.Run
import proofs.«154387_j26774826123748_2_alg».proof.Proof.Gen.ReferenceIdeal.Read
import proofs.«154387_j26774826123748_2_alg».proof.Proof.Gen.Pre_finite_inputs
import proofs.«154387_j26774826123748_2_alg».proof.Proof.KValue
import proofs.«154387_j26774826123748_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the re-laid-out attention readout of the same three reshaped arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.v19_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
